-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x3 : Shape := ⟨3, ![256, 256, 3]⟩
abbrev S1024x2 : Shape := ⟨2, ![1024, 2]⟩
abbrev S1024 : Shape := ⟨1, ![1024]⟩
abbrev S1024x1 : Shape := ⟨2, ![1024, 1]⟩
abbrev S256x1x1024 : Shape := ⟨3, ![256, 1, 1024]⟩
abbrev S_ : Shape := ⟨0, ![]⟩

class Facts : Prop where
  bcast_S_S256x256x3 : S_.BroadcastsInDim S256x256x3 (![] : Fin 0 → Fin S256x256x3.rank)
  reducesTo_S256x256x3_S_d0_1_2 : S256x256x3.ReducesTo [0, 1, 2] S_
  h_S_ : 0 < S_.numel
  bcast_S_S1024x2 : S_.BroadcastsInDim S1024x2 (![] : Fin 0 → Fin S1024x2.rank)
  reducesTo_S1024x2_S_d0_1 : S1024x2.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S256x1x1024 : S_.BroadcastsInDim S256x1x1024 (![] : Fin 0 → Fin S256x1x1024.rank)
  reducesTo_S256x1x1024_S_d0_1_2 : S256x1x1024.ReducesTo [0, 1, 2] S_

variable [Facts]

def fn_part1 {F : FTy → Type} [FloatOps F] (main_arg4 : FVec F S1024 .f32) (main_arg5 : FVec F S256x1x1024 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S256x1x1024 .f32 := Host.absf main_arg5
  let main_cst_8 : FVec F S_ .f32 := constant S_ .f32 0x7F800000#32
  let main_v25 : FVec F S256x1x1024 .f32 := broadcastInDim S256x1x1024 ![] bcast_S_S256x1x1024 main_cst_8
  let main_v26 : IVec S256x1x1024 1 := cmpf .olt main_v24 main_v25
  let main_c_9 : IVec S_ 1 := constantI S_ 1 1#1
  let main_v27 : IVec S_ 1 := (fun x v => Host.reduce IntOp.andi x v reducesTo_S256x1x1024_S_d0_1_2 h_S_) main_v26 main_c_9
  let main_v28 : IVec S_ 1 := andi main_v23 main_v27
  main_v28

def fn {F : FTy → Type} [FloatOps F] (main_arg0 : FVec F S256x256x3 .f32) (main_arg1 : FVec F S1024x2 .f32) (main_arg2 : FVec F S1024 .f32) (main_arg3 : FVec F S1024x1 .f32) (main_arg4 : FVec F S1024 .f32) (main_arg5 : FVec F S256x1x1024 .f32) : IVec S_ 1 :=
  let main_v0 : FVec F S256x256x3 .f32 := Host.absf main_arg0
  let main_cst : FVec F S_ .f32 := constant S_ .f32 0x7F800000#32
  let main_v1 : FVec F S256x256x3 .f32 := broadcastInDim S256x256x3 ![] bcast_S_S256x256x3 main_cst
  let main_v2 : IVec S256x256x3 1 := cmpf .olt main_v0 main_v1
  let main_c : IVec S_ 1 := constantI S_ 1 1#1
  let main_v3 : IVec S_ 1 := (fun x v => Host.reduce IntOp.andi x v reducesTo_S256x256x3_S_d0_1_2 h_S_) main_v2 main_c
  let main_v4 : FVec F S1024x2 .f32 := Host.absf main_arg1
  let main_cst_0 : FVec F S_ .f32 := constant S_ .f32 0x7F800000#32
  let main_v5 : FVec F S1024x2 .f32 := broadcastInDim S1024x2 ![] bcast_S_S1024x2 main_cst_0
  let main_v6 : IVec S1024x2 1 := cmpf .olt main_v4 main_v5
  let main_c_1 : IVec S_ 1 := constantI S_ 1 1#1
  let main_v7 : IVec S_ 1 := (fun x v => Host.reduce IntOp.andi x v reducesTo_S1024x2_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_arg5 main_v13 main_v16
-- ==== Kernel.lean ====
abbrev S256x256x3 : Shape := ⟨3, ![256, 256, 3]⟩
abbrev S1024x2 : Shape := ⟨2, ![1024, 2]⟩
abbrev S1024 : Shape := ⟨1, ![1024]⟩
abbrev S1024x1 : Shape := ⟨2, ![1024, 1]⟩
abbrev S256x1x1024 : Shape := ⟨3, ![256, 1, 1024]⟩
abbrev S2x1024 : Shape := ⟨2, ![2, 1024]⟩
abbrev S1x1024 : Shape := ⟨2, ![1, 1024]⟩
abbrev S1x1x1024 : Shape := ⟨3, ![1, 1, 1024]⟩
abbrev S256x256x1024 : Shape := ⟨3, ![256, 256, 1024]⟩
abbrev S64x32x3 : Shape := ⟨3, ![64, 32, 3]⟩
abbrev S64x1x1024 : Shape := ⟨3, ![64, 1, 1024]⟩
abbrev S64x32x1024 : Shape := ⟨3, ![64, 32, 1024]⟩
abbrev S64x32x1 : Shape := ⟨3, ![64, 32, 1]⟩

abbrev nBuf : Space → Nat
  | .hbm => 13
  | .vmem => 8
  | .smem => 0
  | _ => 0

abbrev bufTy : (tb : Table) → Fin (tcTables nBuf tb) → BufTy
  | .hbm, ⟨0, _⟩ => ⟨S256x256x3, .f32⟩
  | .hbm, ⟨1, _⟩ => ⟨S1024x2, .f32⟩
  | .hbm, ⟨2, _⟩ => ⟨S1024, .f32⟩
  | .hbm, ⟨3, _⟩ => ⟨S1024x1, .f32⟩
  | .hbm, ⟨4, _⟩ => ⟨S1024, .f32⟩
  | .hbm, ⟨5, _⟩ => ⟨S256x1x1024, .f32⟩
  | .hbm, ⟨6, _⟩ => ⟨S2x1024, .f32⟩
  | .hbm, ⟨7, _⟩ => ⟨S1x1024, .f32⟩
  | .hbm, ⟨8, _⟩ => ⟨S1024, .f32⟩
  | .hbm, ⟨9, _⟩ => ⟨S1x1x1024, .f32⟩
  | .hbm, ⟨10, _⟩ => ⟨S256x1x1024, .f32⟩
  | .hbm, ⟨11, _⟩ => ⟨S256x1x1024, .f32⟩
  | .hbm, ⟨12, _⟩ => ⟨S256x256x1024, .f32⟩
  | .local _ .vmem, ⟨0, _⟩ => ⟨S64x32x3, .f32⟩
  | .local _ .vmem, ⟨1, _⟩ => ⟨S64x32x3, .f32⟩
  | .local _ .vmem, ⟨2, _⟩ => ⟨S2x1024, .f32⟩
  | .local _ .vmem, ⟨3, _⟩ => ⟨S1x1024, .f32⟩
  | .local _ .vmem, ⟨4, _⟩ => ⟨S64x1x1024, .f32⟩
  | .local _ .vmem, ⟨5, _⟩ => ⟨S64x1x1024, .f32⟩
  | .local _ .vmem, ⟨6, _⟩ => ⟨S64x32x1024, .f32⟩
  | .local _ .vmem, ⟨7, _⟩ => ⟨S64x32x1024, .f32⟩
  | _, _ => ⟨S256x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x2_S2x1024_1_0 : S1024x2.Transposes [1, 0] S2x1024
  transposes_S1024x1_S1x1024_1_0 : S1024x1.Transposes [1, 0] S1x1024
  shapeCasts_S1024_S1x1x1024 : S1024.ShapeCasts S1x1x1024
  bcast_S1x1x1024_S256x1x1024_0_1_2 : S1x1x1024.BroadcastsInDim S256x1x1024 (![0, 1, 2] : Fin 3 → Fin S256x1x1024.rank)
  inb_S64x32x3_S64x32x3_0_0_0 : ∀ a, (![0, 0, 0] : Fin 3 → Nat) a + S64x32x3.size a ≤ S64x32x3.size a
  h_S64x32x3 : 0 < S64x32x3.numel
  slices_S64x32x3_o0_0_0_S64x32x1 : S64x32x3.Slices ![0, 0, 0] S64x32x1
  slices_S64x32x3_o0_0_1_S64x32x1 : S64x32x3.Slices ![0, 0, 1] S64x32x1
  slices_S64x32x3_o0_0_2_S64x32x1 : S64x32x3.Slices ![0, 0, 2] S64x32x1
  inb_S2x1024_S1x1024_0_0 : ∀ a, (![0, 0] : Fin 2 → Nat) a + S1x1024.size a ≤ S2x1024.size a
  h_S1x1024 : 0 < S1x1024.numel
  shapeCasts_S1x1024_S1x1024 : S1x1024.ShapeCasts S1x1024
  shapeCasts_S1x1024_S1x1x1024 : S1x1024.ShapeCasts S1x1x1024
  inb_S2x1024_S1x1024_1_0 : ∀ a, (![1, 0] : Fin 2 → Nat) a + S1x1024.size a ≤ S2x1024.size a
  inb_S1x1024_S1x1024_0_0 : ∀ a, (![0, 0] : Fin 2 → Nat) a + S1x1024.size a ≤ S1x1024.size a
  inb_S64x1x1024_S64x1x1024_0_0_0 : ∀ a, (![0, 0, 0] : Fin 3 → Nat) a + S64x1x1024.size a ≤ S64x1x1024.size a
  h_S64x1x1024 : 0 < S64x1x1024.numel
  shapeCasts_S64x1x1024_S64x1x1024 : S64x1x1024.ShapeCasts S64x1x1024
  broadcasts_S64x32x1_S64x32x1024 : S64x32x1.Broadcasts S64x32x1024
  broadcasts_S1x1x1024_S64x32x1024 : S1x1x1024.Broadcasts S64x32x1024
  broadcasts_S64x1x1024_S64x32x1024 : S64x1x1024.Broadcasts S64x32x1024
  inb_S64x32x1024_S64x32x1024_0_0_0 : ∀ a, (![0, 0, 0] : Fin 3 → Nat) a + S64x32x1024.size a ≤ S64x32x1024.size a
  h_S64x32x1024 : 0 < S64x32x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x3.size a ≤ S256x256x3.size a
  hwx0_0 : ∀ i : grid0.Coords, EltTy.bits .f32 = 32 ∨ (Rect.block (s := S256x256x3) S64x32x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x1024.size a ≤ S2x1024.size a
  hwx0_1 : ∀ i : grid0.Coords, EltTy.bits .f32 = 32 ∨ (Rect.block (s := S2x1024) S2x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1x1024.size a ≤ S256x1x1024.size a
  hwx0_3 : ∀ i : grid0.Coords, EltTy.bits .f32 = 32 ∨ (Rect.block (s := S256x1x1024) S64x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x32x1024.size a ≤ S256x256x1024.size a
  hwx0_4 : ∀ i : grid0.Coords, EltTy.bits .f32 = 32 ∨ (Rect.block (s := S256x256x1024) S64x32x1024.size (cc0_transform_4 i) (hinb0_4 i)).WholeWords (EltTy.packing .f32)

variable [Facts₀]

abbrev win0_0 : Pipeline.Window sig grid0 :=
  Pipeline.Window.ofSpec (Memref.whole main_arg0) S64x32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x32x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x256x3 : Shape := ⟨3, ![256, 256, 3]⟩
abbrev S1024x2 : Shape := ⟨2, ![1024, 2]⟩
abbrev S1024 : Shape := ⟨1, ![1024]⟩
abbrev S1024x1 : Shape := ⟨2, ![1024, 1]⟩
abbrev S256x1x1024 : Shape := ⟨3, ![256, 1, 1024]⟩
abbrev S256x256x2 : Shape := ⟨3, ![256, 256, 2]⟩
abbrev S256x256x1024 : Shape := ⟨3, ![256, 256, 1024]⟩
abbrev S1x1x1024 : Shape := ⟨3, ![1, 1, 1024]⟩
abbrev S256x256x1 : Shape := ⟨3, ![256, 256, 1]⟩

abbrev nBuf : Space → Nat
  | .hbm => 23
  | .vmem => 0
  | .smem => 0
  | _ => 0

abbrev bufTy : (tb : Table) → Fin (tcTables nBuf tb) → BufTy
  | .hbm, ⟨0, _⟩ => ⟨S256x256x3, .f32⟩
  | .hbm, ⟨1, _⟩ => ⟨S1024x2, .f32⟩
  | .hbm, ⟨2, _⟩ => ⟨S1024, .f32⟩
  | .hbm, ⟨3, _⟩ => ⟨S1024x1, .f32⟩
  | .hbm, ⟨4, _⟩ => ⟨S1024, .f32⟩
  | .hbm, ⟨5, _⟩ => ⟨S256x1x1024, .f32⟩
  | .hbm, ⟨6, _⟩ => ⟨S256x256x2, .f32⟩
  | .hbm, ⟨7, _⟩ => ⟨S256x256x1024, .f32⟩
  | .hbm, ⟨8, _⟩ => ⟨S1x1x1024, .f32⟩
  | .hbm, ⟨9, _⟩ => ⟨S256x256x1024, .f32⟩
  | .hbm, ⟨10, _⟩ => ⟨S256x256x1024, .f32⟩
  | .hbm, ⟨11, _⟩ => ⟨S256x256x1, .f32⟩
  | .hbm, ⟨12, _⟩ => ⟨S1024, .f32⟩
  | .hbm, ⟨13, _⟩ => ⟨S1x1x1024, .f32⟩
  | .hbm, ⟨14, _⟩ => ⟨S256x256x1024, .f32⟩
  | .hbm, ⟨15, _⟩ => ⟨S256x256x1024, .f32⟩
  | .hbm, ⟨16, _⟩ => ⟨S256x256x1024, .f32⟩
  | .hbm, ⟨17, _⟩ => ⟨S1x1x1024, .f32⟩
  | .hbm, ⟨18, _⟩ => ⟨S256x256x1024, .f32⟩
  | .hbm, ⟨19, _⟩ => ⟨S256x256x1024, .f32⟩
  | .hbm, ⟨20, _⟩ => ⟨S256x256x1024, .f32⟩
  | .hbm, ⟨21, _⟩ => ⟨S256x256x1024, .f32⟩
  | .hbm, ⟨22, _⟩ => ⟨S256x256x1024, .f32⟩
  | _, _ => ⟨S256x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S256x256x3_S256x256x2_0_0_0 : S256x256x3.Slices ![0, 0, 0] S256x256x2
  bcast_S1024_S1x1x1024_2 : S1024.BroadcastsInDim S1x1x1024 (![2] : Fin 1 → Fin S1x1x1024.rank)
  bcast_S1x1x1024_S256x256x1024_0_1_2 : S1x1x1024.BroadcastsInDim S256x256x1024 (![0, 1, 2] : Fin 3 → Fin S256x256x1024.rank)
  slices_S256x256x3_S256x256x1_0_0_2 : S256x256x3.Slices ![0, 0, 2] S256x256x1
  shapeCasts_S1024x1_S1024 : S1024x1.ShapeCasts S1024
  bcast_S256x256x1_S256x256x1024_0_1_2 : S256x256x1.BroadcastsInDim S256x256x1024 (![0, 1, 2] : Fin 3 → Fin S256x256x1024.rank)
  bcast_S256x1x1024_S256x256x1024_0_1_2 : S256x1x1024.BroadcastsInDim S256x256x1024 (![0, 1, 2] : Fin 3 → Fin S256x256x1024.rank)
  dot_S256x256x2_S1024x2_S256x256x1024_2_1_01_0_n_n_wf : DotDims.WF S256x256x2 S1024x2 S256x256x1024 [2] [1] [0, 1] [0] [] []

variable [Facts₀]

def dot_S256x256x2_S1024x2_S256x256x1024_2_1_01_0_n_n : DotDims S256x256x2 S1024x2 S256x256x1024 where
  lhsContracting := [2]
  rhsContracting := [1]
  lhsNonContracting := [0, 1]
  rhsNonContracting := [0]
  lhsBatch := []
  rhsBatch := []
  wf := dot_S256x256x2_S1024x2_S256x256x1024_2_1_01_0_n_n_wf

class Facts : Prop extends Facts₀ where

variable [Facts]
-- ==== Proof.Encoded.lean ====
/-
  What the layer computes, entry by entry, as ONE function of the six argument arrays.

  For a sequence position `s`, a batch row `b` and a model coordinate `d` the result is the sum of six terms:
  the two products of the planar coordinates `x[s,b,0]`, `x[s,b,1]` with row `d` of the 2-column weight, the
  product of the segment coordinate `x[s,b,2]` with the 1-column weight at `d`, the positional table at `(s, d)`
  and the two bias vectors at `d`:

      x[s,b,0]·Wxy[d,0] + x[s,b,1]·Wxy[d,1] + x[s,b,2]·Wseg[d,0] + pe[s,0,d] + bxy[d] + bseg[d].

  `entry` fixes one grouping of that sum (the three products first, then the table with the two biases already
  added to it). The other grouping met in this certificate — the inner product over the two planar coordinates
  with its bias, then the table, then the segment product with its bias — is the same extended real
  (`entry_regroup`): addition of extended reals is commutative and associative with no side condition, so
  no finiteness of the inputs is used anywhere.
-/
import Idealize.ShloMosaic.PureOps.Ideal
import Idealize.ShloMosaic.Lib.ValueIdx

noncomputable section

namespace Cert.PosEnc

open Idealize.ShloMosaic Idealize.ShloMosaic.ValueIdx
open scoped BigOperators

/-- The entry at sequence position `s`, batch row `b`, model coordinate `d`: the three products, then the
    positional table's entry with the sum of the two biases. -/
def entry (x : FVec Ideal ⟨3, ![256, 256, 3]⟩ .f32) (wxy : FVec Ideal ⟨2, ![1024, 2]⟩ .f32)
    (bxy : FVec Ideal ⟨1, ![1024]⟩ .f32) (wseg : FVec Ideal ⟨2, ![1024, 1]⟩ .f32)
    (bseg : FVec Ideal ⟨1, ![1024]⟩ .f32) (pe : FVec Ideal ⟨3, ![256, 1, 1024]⟩ .f32)
    (s : Fin 256) (b : Fin 256) (d : Fin 1024) : EReal :=
  x (ix3 s b (0 : Fin 3)) * wxy (ix2 d (0 : Fin 2)) + x (ix3 s b (1 : Fin 3)) * wxy (ix2 d (1 : Fin 2))
    + x (ix3 s b (2 : Fin 3)) * wseg (ix2 d (0 : Fin 1))
    + (pe (ix3 s (0 : Fin 1) d) + (bxy (ix1 d) + bseg (ix1 d)))

/-- The whole result array: `entry` at the index's three coordinates. -/
def encoded (x : FVec Ideal ⟨3, ![256, 256, 3]⟩ .f32) (wxy : FVec Ideal ⟨2, ![1024, 2]⟩ .f32)
    (bxy : FVec Ideal ⟨1, ![1024]⟩ .f32) (wseg : FVec Ideal ⟨2, ![1024, 1]⟩ .f32)
    (bseg : FVec Ideal ⟨1, ![1024]⟩ .f32) (pe : FVec Ideal ⟨3, ![256, 1, 1024]⟩ .f32) :
    FVec Ideal ⟨3, ![256, 256, 1024]⟩ .f32 :=
  fun i => entry x wxy bxy wseg bseg pe ⟨(i 0).val, (i 0).isLt⟩ ⟨(i 1).val, (i 1).isLt⟩ ⟨(i 2).val, (i 2).isLt⟩

/-- THE LAW that joins the two groupings: six extended reals added as
    `(((p₀ + p₁) + β) + τ) + (q + γ)` are the same sum as `((p₀ + p₁) + q) + (τ + (β + γ))` — commutativity and
    associativity of `+` alone, which hold at the infinities too. -/
theorem regroup (p0 p1 q t β γ : EReal) : (((p0 + p1) + β) + t) + (q + γ) = ((p0 + p1) + q) + (t + (β + γ)) := by
  ac_rfl

/-- The inner product over the two planar coordinates, its bias, the table, then the segment product with its
    bias — the grouping in which the layer is usually written — is `entry`. -/
theorem entry_regroup (x : FVec Ideal ⟨3, ![256, 256, 3]⟩ .f32) (wxy : FVec Ideal ⟨2, ![1024, 2]⟩ .f32)
    (bxy : FVec Ideal ⟨1, ![1024]⟩ .f32) (wseg : FVec Ideal ⟨2, ![1024, 1]⟩ .f32)
    (bseg : FVec Ideal ⟨1, ![1024]⟩ .f32) (pe : FVec Ideal ⟨3, ![256, 1, 1024]⟩ .f32)
    (s : Fin 256) (b : Fin 256) (d : Fin 1024) :
    (((∑ k : Fin 2, x (ix3 s b (Fin.castLE (by decide : 2 ≤ 3) k)) * wxy (ix2 d k)) + bxy (ix1 d)) + pe (ix3 s (0 : Fin 1) d))
      + (x (ix3 s b (2 : Fin 3)) * wseg (ix2 d (0 : Fin 1)) + bseg (ix1 d))
    = entry x wxy bxy wseg bseg pe s b d := by
  rw [Fin.sum_univ_two]
  exact regroup _ _ _ _ _ _

end Cert.PosEnc

end
-- ==== Proof.ReferenceEncoded.lean ====
/-
  The reference program's result is `encoded`.

  Read one operation at a time, the reference's last stage at an index `(s, b, d)` is

      (((Σ_{k<2} x[s,b,k]·Wxy[d,k]) + bxy[d]) + pe[s,0,d]) + (x[s,b,2]·Wseg[d,0] + bseg[d]) :

  the contraction over the two planar coordinates reads the slice `x[:, :, 0:2]` at `(s, b, k)` — the array at
  the same three coordinates — and the weight at `(d, k)`; the one-column weight is reshaped to a vector, which is read at
  `(d / 1, 0) = (d, 0)`; every bias and the table are broadcast along the axes they lack. Each composed index
  map is the plain tuple of coordinates (checked coordinate by coordinate), and the sum is `entry` regrouped.
-/
import proofs.«138454_j25288767438916_2_alg».proof.Proof.Gen.ReferenceIdeal.Read
import proofs.«138454_j25288767438916_2_alg».proof.Proof.Encoded

noncomputable section

namespace Cert.PosEnc.Ref

open Idealize.ShloMosaic Idealize.ShloMosaic.ValueIdx Cert.ReferenceIdeal Cert.ReferenceIdeal.Read
open scoped BigOperators

/-- The reference's last stage, as a function of the six arguments, is `encoded` of them. -/
theorem reference_eq (x0 : FVec Ideal S256x256x3 .f32) (x1 : FVec Ideal S1024x2 .f32) (x2 : FVec Ideal S1024 .f32)
    (x3 : FVec Ideal S1024x1 .f32) (x4 : FVec Ideal S1024 .f32) (x5 : FVec Ideal S256x1x1024 .f32) :
    val_main_v16 (F := Ideal) x0 x1 x2 x3 x4 x5 = encoded x0 x1 x2 x3 x4 x5 := by
  funext i
  -- the stages, outermost first: three sums, the contraction, the product, and the layout operations under them
  rw [val_main_v16_apply, val_main_v15_apply, val_main_v4_apply, val_main_v1_apply, val_main_v3_apply, val_main_v2_apply,
    val_main_v14_apply, val_main_v13_apply, val_main_v10_apply, val_main_v8_apply, val_main_v5_apply, val_main_v9_apply,
    val_main_v7_apply, val_main_v6_apply, val_main_v12_apply, val_main_v11_apply]
  simp only [val_main_v0_apply]
  -- the index's three coordinates, at their literal extents
  obtain ⟨s, hs⟩ : ∃ s : Fin 256, s = ⟨(i 0).val, (i 0).isLt⟩ := ⟨_, rfl⟩
  obtain ⟨b, hb⟩ : ∃ b : Fin 256, b = ⟨(i 1).val, (i 1).isLt⟩ := ⟨_, rfl⟩
  obtain ⟨d, hd⟩ : ∃ d : Fin 1024, d = ⟨(i 2).val, (i 2).isLt⟩ := ⟨_, rfl⟩
  -- the slice of the first two planar coordinates, under the contraction: the array at (s, b, k)
  have ex : ∀ k : Fin 2, idx_main_v0 (lidx_main_v1 i k) = ix3 s b (Fin.castLE (by decide : 2 ≤ 3) k) := fun k => by
    subst hs hb; exact funext fun a => Fin.ext (by match a with | ⟨0, _⟩ => rfl | ⟨1, _⟩ => rfl | ⟨2, _⟩ => rfl)
  -- the two-column weight at (d, k)
  have ew : ∀ k : Fin 2, ridx_main_v1 i k = ix2 d k := fun k => by
    subst hd; exact funext fun a => Fin.ext (by match a with | ⟨0, _⟩ => rfl | ⟨1, _⟩ => rfl)
  -- the first bias, broadcast twice, at d
  have eb : idx_main_v2 (idx_main_v3 i) = ix1 d := by
    subst hd; exact funext fun a => Fin.ext (by match a with | ⟨0, _⟩ => rfl)
  -- the positional table, broadcast along the batch axis, at (s, 0, d)
  have ep : idx_main_v14 i = ix3 s (0 : Fin 1) d := by
    subst hs hd; exact funext fun a => Fin.ext (by match a with | ⟨0, _⟩ => rfl | ⟨1, _⟩ => rfl | ⟨2, _⟩ => rfl)
  -- the slice of the segment coordinate, broadcast along the model axis: the array at (s, b, 2)
  have eg : idx_main_v5 (idx_main_v8 i) = ix3 s b (2 : Fin 3) := by
    subst hs hb; exact funext fun a => Fin.ext (by match a with | ⟨0, _⟩ => rfl | ⟨1, _⟩ => rfl | ⟨2, _⟩ => rfl)
  -- the one-column weight, reshaped to a vector and broadcast twice: the weight at (d / 1, 0) = (d, 0)
  have es : idx_main_v6 (idx_main_v7 (idx_main_v9 i)) = ix2 d (0 : Fin 1) := by
    subst hd; exact funext fun a => Fin.ext (by
      match a with
      | ⟨0, _⟩ => exact Nat.div_one _
      | ⟨1, _⟩ => rfl)
  -- the second bias, broadcast twice, at d
  have ec : idx_main_v11 (idx_main_v12 i) = ix1 d := by
    subst hd; exact funext fun a => Fin.ext (by match a with | ⟨0, _⟩ => rfl)
  simp only [ex, ew, eb, ep, eg, es, ec, Ideal.addf_def, Ideal.mulf_def]
  subst hs hb hd
  exact Cert.PosEnc.entry_regroup x0 x1 x2 x3 x4 x5 _ _ _

end Cert.PosEnc.Ref

end
-- ==== Proof.RegionEntry.lean ====
/-
  What the kernel's region finds in the three arrays the host prepares before it, read at an index.

  Before the region the program transposes the two weights and folds the two biases into the positional table:
    * the 2-column weight transposed, at `(k, d)`, is the weight at `(d, k)`;
    * the 1-column weight transposed, at `(0, d)`, is the weight at `(d, 0)`;
    * the table with the biases added, at `(s, 0, d)`, is `pe[s,0,d] + (bxy[d] + bseg[d])`: the sum of the
      two bias vectors is reshaped to `[1, 1, 1024]` (same row-major position `d`), broadcast along the sequence
      axis, and added to the table entry by entry.
  Each is first stated for arbitrary vectors (a pure fact about the layout operations) and then for the contents of
  the program's buffers when the region is entered.
-/
import proofs.«138454_j25288767438916_2_alg».proof.Proof.Gen.KernelIdeal.Frame
import Idealize.ShloMosaic.Lib.StableHlo.Run
import Idealize.ShloMosaic.Lib.Pipeline.Value
import Idealize.ShloMosaic.Lib.ValueIdx

noncomputable section

namespace Cert.PosEnc.Entry

open Idealize.ShloMosaic Idealize.ShloMosaic.TcCoe Idealize.SL.Sem Idealize.ShloMosaic.ValueIdx
open Cert.KernelIdeal Cert.KernelIdeal.Gen

/-! ## The layout operations, over arbitrary vectors -/

/-- A `[1024, 2]` array transposed, at `(k, d)`, is the array at `(d, k)`. -/
theorem transpose_cols2_apply (w : FVec Ideal S1024x2 .f32) (k : Fin 2) (d : Fin 1024) :
    transpose S2x1024 [1, 0] w transposes_S1024x2_S2x1024_1_0 (ix2 k d) = w (ix2 d k) :=
  transpose_apply [1, 0] w transposes_S1024x2_S2x1024_1_0 (ix2 k d) (ix2 d k)
    (fun b => match b with | ⟨0, _⟩ => rfl | ⟨1, _⟩ => rfl)

/-- A `[1024, 1]` array transposed, at `(0, d)`, is the array at `(d, 0)`. -/
theorem transpose_col1_apply (w : FVec Ideal S1024x1 .f32) (d : Fin 1024) :
    transpose S1x1024 [1, 0] w transposes_S1024x1_S1x1024_1_0 (ix2 (0 : Fin 1) d) = w (ix2 d (0 : Fin 1)) :=
  transpose_apply [1, 0] w transposes_S1024x1_S1x1024_1_0 (ix2 (0 : Fin 1) d) (ix2 d (0 : Fin 1))
    (fun b => match b with | ⟨0, _⟩ => rfl | ⟨1, _⟩ => rfl)

/-- The table plus the broadcast sum of two vectors, at `(s, 0, d)`: the table's entry plus the two vectors' entries at `d`. -/
theorem table_plus_biases_apply (pe : FVec Ideal S256x1x1024 .f32) (b1 b2 : FVec Ideal S1024 .f32) (s : Fin 256) (d : Fin 1024) :
    addf pe (broadcastInDim S256x1x1024 ![0, 1, 2] bcast_S1x1x1024_S256x1x1024_0_1_2
        (shapeCast S1x1x1024 (addf b1 b2) shapeCasts_S1024_S1x1x1024)) (ix3 s (0 : Fin 1) d)
      = pe (ix3 s (0 : Fin 1) d) + (b1 (ix1 d) + b2 (ix1 d)) := by
  rw [addf_apply]
  refine congrArg (pe (ix3 s (0 : Fin 1) d) + ·) ?_
  -- the broadcast along the sequence axis reads the [1, 1, 1024] operand at (0, 0, d)
  refine (broadcastInDim_apply _ bcast_S1x1x1024_S256x1x1024_0_1_2 _ (ix3 s (0 : Fin 1) d)
    (ix3 (0 : Fin 1) (0 : Fin 1) d) (fun a => match a with
      | ⟨0, _⟩ => by show 0 = if (1 : Nat) = 1 then 0 else s.val; rw [if_pos rfl]
      | ⟨1, _⟩ => by show 0 = if (1 : Nat) = 1 then 0 else 0; rw [if_pos rfl]
      | ⟨2, _⟩ => by show d.val = if (1024 : Nat) = 1 then 0 else d.val; rw [if_neg (by decide)])).trans ?_
  -- the reshape keeps the row-major position: (0, 0, d) of [1, 1, 1024] is d of [1024]
  refine (shapeCast_apply (addf b1 b2) shapeCasts_S1024_S1x1x1024 (ix3 (0 : Fin 1) (0 : Fin 1) d) (ix1 d)
    (by rw [Shape.rowMajor_val_one, Shape.rowMajor_val_three]; show d.val = (0 * 1 + 0) * 1024 + d.val; omega)).trans ?_
  rfl

/-! ## The buffers when the region is entered -/

variable (m : (ℓ : Loc nD τ sig) → Buf (Elt Ideal) ℓ)

/-- The six argument arrays as launched on core `c`, each at its literal shape: the coordinates `x`, the
    2-column weight and its bias, the 1-column weight and its bias, the positional table. -/
abbrev argX (c : Dev nD) : FVec Ideal S256x256x3 .f32 := m ((c : Thread nD τ).loc main_arg0)
abbrev argWxy (c : Dev nD) : FVec Ideal S1024x2 .f32 := m ((c : Thread nD τ).loc main_arg1)
abbrev argBxy (c : Dev nD) : FVec Ideal S1024 .f32 := m ((c : Thread nD τ).loc main_arg2)
abbrev argWseg (c : Dev nD) : FVec Ideal S1024x1 .f32 := m ((c : Thread nD τ).loc main_arg3)
abbrev argBseg (c : Dev nD) : FVec Ideal S1024 .f32 := m ((c : Thread nD τ).loc main_arg4)
abbrev argPe (c : Dev nD) : FVec Ideal S256x1x1024 .f32 := m ((c : Thread nD τ).loc main_arg5)

/-- The region's first operand is the coordinates array itself: no host operation writes it. -/
theorem x_apply (c : Dev nD) (i : S256x256x3.Idx) :
    (V m c main_arg0 : S256x256x3.Idx → EReal) i = argX m c i :=
  congrFun (V_main_arg0 m c) i

/-- The region's second operand is the 2-column weight transposed. -/
theorem wxyT_apply (c : Dev nD) (k : Fin 2) (d : Fin 1024) :
    (V m c main_v0 : S2x1024.Idx → EReal) (ix2 k d) = argWxy m c (ix2 d k) := by
  have e : (V m c main_v0 : S2x1024.Idx → EReal)
      = transpose S2x1024 [1, 0] (argWxy m c) transposes_S1024x2_S2x1024_1_0 := by
    dsimp only [Gen.V, Gen.hostOps0]; after_results <;> rfl
  rw [e]
  exact transpose_cols2_apply _ k d

/-- The region's third operand is the 1-column weight transposed. -/
theorem wsegT_apply (c : Dev nD) (d : Fin 1024) :
    (V m c main_v1 : S1x1024.Idx → EReal) (ix2 (0 : Fin 1) d) = argWseg m c (ix2 d (0 : Fin 1)) := by
  have e : (V m c main_v1 : S1x1024.Idx → EReal)
      = transpose S1x1024 [1, 0] (argWseg m c) transposes_S1024x1_S1x1024_1_0 := by
    dsimp only [Gen.V, Gen.hostOps0]; after_results <;> rfl
  rw [e]
  exact transpose_col1_apply _ d

/-- The region's fourth operand is the positional table with the two biases added. -/
theorem tableB_apply (c : Dev nD) (s : Fin 256) (d : Fin 1024) :
    (V m c main_v5 : S256x1x1024.Idx → EReal) (ix3 s (0 : Fin 1) d)
      = argPe m c (ix3 s (0 : Fin 1) d) + (argBxy m c (ix1 d) + argBseg m c (ix1 d)) := by
  have e : (V m c main_v5 : S256x1x1024.Idx → EReal)
      = addf (argPe m c) (broadcastInDim S256x1x1024 ![0, 1, 2] bcast_S1x1x1024_S256x1x1024_0_1_2
          (shapeCast S1x1x1024 (addf (argBxy m c) (argBseg m c)) shapeCasts_S1024_S1x1x1024)) := by
    dsimp only [Gen.V, Gen.hostOps0]; after_results <;> rfl
  rw [e]
  exact table_plus_biases_apply _ _ _ s d

end Cert.PosEnc.Entry

end
-- ==== Proof.BodyBlock.lean ====
/-
  What the kernel body leaves in its output block, entry by entry, for ARBITRARY contents of its four input blocks.

  The body loads the whole `[64, 32, 3]` block of coordinates, the two rows of the transposed 2-column weight (row 0
  and row 1 of a `[2, 1024]` block, each through its own one-row rectangle), the one row of the transposed 1-column
  weight and the `[64, 1, 1024]` block of the table, and stores one `[64, 32, 1024]` block. At `(p, q, d)` of that
  block the stored value is

      X[p,q,0]·W[0,d] + X[p,q,1]·W[1,d] + X[p,q,2]·Ws[0,d] + T[p,0,d] :

  every slice, reshape and broadcast of the body only says WHERE each factor is read, and the generated value leg has
  already reduced them to seven index maps; here each is identified with the plain tuple of coordinates (a one-row
  rectangle at row offset `r` reads row `r`).
-/
import proofs.«138454_j25288767438916_2_alg».proof.Proof.Gen.KernelIdeal.Value
import Idealize.ShloMosaic.Lib.ValueIdx

noncomputable section

namespace Cert.PosEnc.Body

open Idealize.ShloMosaic Idealize.ShloMosaic.TcCoe Idealize.SL.Sem Idealize.ShloMosaic.ValueIdx
open Cert.KernelIdeal Cert.KernelIdeal.Gen Cert.KernelIdeal.Value

/-- The output block at `(p, q, d)`: three products and the table's entry, in the order the body adds them. -/
theorem block_apply (X : FVec Ideal S64x32x3 .f32) (W : FVec Ideal S2x1024 .f32) (Ws : FVec Ideal S1x1024 .f32)
    (T : FVec Ideal S64x1x1024 .f32) (p : Fin 64) (q : Fin 32) (d : Fin 1024) :
    out0_4 (F := Ideal) X W Ws T (ix3 p q d)
      = X (ix3 p q (0 : Fin 3)) * W (ix2 (0 : Fin 2) d) + X (ix3 p q (1 : Fin 3)) * W (ix2 (1 : Fin 2) d)
        + X (ix3 p q (2 : Fin 3)) * Ws (ix2 (0 : Fin 1) d) + T (ix3 p (0 : Fin 1) d) := by
  unfold out0_4
  refine (canon4_eq (F := Ideal) _ _ _ _ _ (ix3 p q d)).trans ?_
  -- the first planar coordinate, through the whole-block rectangle
  have hx0 : r0_0.idx (ix4_0 (ix3 p q d)) = ix3 p q (0 : Fin 3) := funext fun a => Fin.ext (by
    match a with
    | ⟨0, _⟩ => show 0 + 1 * p.val = p.val; omega
    | ⟨1, _⟩ => show 0 + 1 * q.val = q.val; omega
    | ⟨2, _⟩ => show 0 + 1 * 0 = 0; omega)
  -- row 0 of the transposed weight: the one-row rectangle at row offset 0
  have hw0 : r0_1.idx (ix4_1 (ix3 p q d)) = ix2 (0 : Fin 2) d := funext fun a => Fin.ext (by
    match a with
    | ⟨0, _⟩ => show 0 + 1 * 0 = 0; omega
    | ⟨1, _⟩ => show 0 + 1 * d.val = d.val; omega)
  -- the second planar coordinate
  have hx1 : r0_0.idx (ix4_2 (ix3 p q d)) = ix3 p q (1 : Fin 3) := funext fun a => Fin.ext (by
    match a with
    | ⟨0, _⟩ => show 0 + 1 * p.val = p.val; omega
    | ⟨1, _⟩ => show 0 + 1 * q.val = q.val; omega
    | ⟨2, _⟩ => show 0 + 1 * 1 = 1; omega)
  -- row 1 of the transposed weight: the one-row rectangle at row offset 1
  have hw1 : r0_2.idx (ix4_3 (ix3 p q d)) = ix2 (1 : Fin 2) d := funext fun a => Fin.ext (by
    match a with
    | ⟨0, _⟩ => show 1 + 1 * 0 = 1; omega
    | ⟨1, _⟩ => show 0 + 1 * d.val = d.val; omega)
  -- the segment coordinate
  have hx2 : r0_0.idx (ix4_4 (ix3 p q d)) = ix3 p q (2 : Fin 3) := funext fun a => Fin.ext (by
    match a with
    | ⟨0, _⟩ => show 0 + 1 * p.val = p.val; omega
    | ⟨1, _⟩ => show 0 + 1 * q.val = q.val; omega
    | ⟨2, _⟩ => show 0 + 1 * 2 = 2; omega)
  -- the one row of the transposed 1-column weight
  have hws : r0_3.idx (ix4_5 (ix3 p q d)) = ix2 (0 : Fin 1) d := funext fun a => Fin.ext (by
    match a with
    | ⟨0, _⟩ => show 0 + 1 * 0 = 0; omega
    | ⟨1, _⟩ => show 0 + 1 * d.val = d.val; omega)
  -- the table's block, broadcast along the batch rows: read at (p, 0, d)
  have ht : r0_4.idx (ix4_6 (ix3 p q d)) = ix3 p (0 : Fin 1) d := funext fun a => Fin.ext (by
    match a with
    | ⟨0, _⟩ => show 0 + 1 * p.val = p.val; omega
    | ⟨1, _⟩ => show 0 + 1 * 0 = 0; omega
    | ⟨2, _⟩ => show 0 + 1 * d.val = d.val; omega)
  show X (r0_0.idx (ix4_0 (ix3 p q d))) * W (r0_1.idx (ix4_1 (ix3 p q d)))
      + X (r0_0.idx (ix4_2 (ix3 p q d))) * W (r0_2.idx (ix4_3 (ix3 p q d)))
      + X (r0_0.idx (ix4_4 (ix3 p q d))) * Ws (r0_3.idx (ix4_5 (ix3 p q d)))
      + T (r0_4.idx (ix4_6 (ix3 p q d))) = _
  rw [hx0, hw0, hx1, hw1, hx2, hws, ht]

end Cert.PosEnc.Body

end
-- ==== Proof.ResultArray.lean ====
/-
  From blocks to the array: after the kernel's run the result array is `encoded` of the six arguments.

  The grid has 4 × 8 points; point `(I, J)` works on the block of 64 sequence positions starting at `64·I` and of 32 batch
  rows starting at `32·J`, all 1024 model coordinates. Its four input blocks are read off the arrays the region finds:
  the coordinates block at block index `(I, J, 0)`, the two transposed weights whole (block index zero at every point),
  the table's block at `(I, 0, 0)`. So entry `(p, q, d)` of what the point writes back is, by the body's value and the
  region-entry reads, `entry` at `(64·I + p, 32·J + q, d)` — the entry of `encoded` that the output block's rectangle
  places there. The 32 output blocks tile the array (the point covering `(s, b, ·)` is `(s / 64, b / 32)`), so the
  array ends holding `encoded` everywhere.
-/
import proofs.«138454_j25288767438916_2_alg».proof.Proof.Gen.KernelIdeal.Value
import proofs.«138454_j25288767438916_2_alg».proof.Proof.Encoded
import proofs.«138454_j25288767438916_2_alg».proof.Proof.RegionEntry
import proofs.«138454_j25288767438916_2_alg».proof.Proof.BodyBlock
import Idealize.ShloMosaic.Lib.Pipeline.Value

noncomputable section

namespace Cert.PosEnc.Result

open Idealize.ShloMosaic Idealize.ShloMosaic.TcCoe Idealize.SL.Sem Idealize.ShloMosaic.ValueIdx
open Idealize.ShloMosaic.Pipeline (Dat)
open Cert.KernelIdeal Cert.KernelIdeal.Gen Cert.PosEnc.Entry

variable (m : (ℓ : Loc nD τ sig) → Buf (Elt Ideal) ℓ) (ρ : Dev nD → PrngReg)

/-- The result array as the certificate states it on core `c`: `encoded` of the six arguments as launched. -/
abbrev target (c : Dev nD) : FVec Ideal S256x256x1024 .f32 :=
  Cert.PosEnc.encoded (argX m c) (argWxy m c) (argBxy m c) (argWseg m c) (argBseg m c) (argPe m c)

/-! ## The printed index maps, decided over the 32 grid points -/

/-- How each input window's block index relates to the output's at a point: the coordinates block moves with the
    output on the first two axes, the table's on the first, the weights do not move; and the output's block
    indices stay in `4 × 8 × 1`. -/
theorem index_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_4.index t (0 : Fin 3)
    ∧ win0_3.index t (1 : Fin 3) = 0 ∧ win0_3.index t (2 : Fin 3) = 0
    ∧ win0_4.index t (0 : Fin 3) ≤ 3 ∧ win0_4.index t (1 : Fin 3) ≤ 7 ∧ win0_4.index t (2 : Fin 3) = 0 :=
  (by decide +kernel : ∀ t : Fin grid0.N, _)

/-- Every block of the `4 × 8` tiling is some point's. -/
theorem index_onto : ∀ (a : Fin 4) (b : Fin 8), ∃ t : Fin cfg0.N, win0_4.index t = ![a.val, b.val, 0] :=
  (by decide +kernel : ∀ (a : Fin 4) (b : Fin 8), ∃ t : Fin grid0.N, win0_4.index t = ![a.val, b.val, 0])

/-! ## The four input blocks at a point, read off the arguments -/

/-- The coordinates block at `(p, q, κ)` is the coordinates array at the sequence position and batch row the
    point's block places there. -/
theorem xblk_apply (c : Dev nD) (t : Fin cfg0.N) (p : Fin 64) (q : Fin 32) (κ : Fin 3) (s b : Fin 256)
    (hs : s.val = win0_4.index t (0 : Fin 3) * 64 + p.val) (hb : b.val = win0_4.index t (1 : Fin 3) * 32 + q.val) :
    iblk m c 0 t (ix3 p q κ) = argX m c (ix3 s b κ) := by
  obtain ⟨e0, e1, e2, -⟩ := index_facts t
  show V m c main_arg0 (((cfg0.win 0).blk t).view.emb (ix3 p q κ)) = _
  have h : ((cfg0.win 0).blk t).view.emb (ix3 p q κ) = ix3 s b κ := by
    funext a; apply Fin.ext
    match a with
    | ⟨0, _⟩ => show win0_0.index t (0 : Fin 3) * 64 + 1 * p.val = s.val; omega
    | ⟨1, _⟩ => show win0_0.index t (1 : Fin 3) * 32 + 1 * q.val = b.val; omega
    | ⟨2, _⟩ => show win0_0.index t (2 : Fin 3) * 3 + 1 * κ.val = κ.val; omega
  rw [h]
  exact x_apply m c _

/-- The transposed 2-column weight's block (the whole array, at every point) at `(k, d)` is the weight at `(d, k)`. -/
theorem wblk_apply (c : Dev nD) (t : Fin cfg0.N) (k : Fin 2) (d : Fin 1024) :
    iblk m c 1 t (ix2 k d) = argWxy m c (ix2 d k) := by
  obtain ⟨-, -, -, e0, e1, -⟩ := index_facts t
  show V m c main_v0 (((cfg0.win 1).blk t).view.emb (ix2 k d)) = _
  have h : ((cfg0.win 1).blk t).view.emb (ix2 k d) = ix2 k d := by
    funext a; apply Fin.ext
    match a with
    | ⟨0, _⟩ => show win0_1.index t (0 : Fin 2) * 2 + 1 * k.val = k.val; omega
    | ⟨1, _⟩ => show win0_1.index t (1 : Fin 2) * 1024 + 1 * d.val = d.val; omega
  rw [h]
  exact wxyT_apply m c k d

/-- The transposed 1-column weight's block (the whole array) at `(0, d)` is the weight at `(d, 0)`. -/
theorem wsblk_apply (c : Dev nD) (t : Fin cfg0.N) (d : Fin 1024) :
    iblk m c 2 t (ix2 (0 : Fin 1) d) = argWseg m c (ix2 d (0 : Fin 1)) := by
  obtain ⟨-, -, -, -, -, e0, e1, -⟩ := index_facts t
  show V m c main_v1 (((cfg0.win 2).blk t).view.emb (ix2 (0 : Fin 1) d)) = _
  have h : ((cfg0.win 2).blk t).view.emb (ix2 (0 : Fin 1) d) = ix2 (0 : Fin 1) d := by
    funext a; apply Fin.ext
    match a with
    | ⟨0, _⟩ => show win0_2.index t (0 : Fin 2) * 1 + 1 * 0 = 0; omega
    | ⟨1, _⟩ => show win0_2.index t (1 : Fin 2) * 1024 + 1 * d.val = d.val; omega
  rw [h]
  exact wsegT_apply m c d

/-- The table's block at `(p, 0, d)` is the table's entry at the point's sequence position plus the two biases at `d`. -/
theorem tblk_apply (c : Dev nD) (t : Fin cfg0.N) (p : Fin 64) (d : Fin 1024) (s : Fin 256)
    (hs : s.val = win0_4.index t (0 : Fin 3) * 64 + p.val) :
    iblk m c 3 t (ix3 p (0 : Fin 1) d)
      = argPe m c (ix3 s (0 : Fin 1) d) + (argBxy m c (ix1 d) + argBseg m c (ix1 d)) := by
  obtain ⟨-, -, -, -, -, -, -, e0, e1, e2, -⟩ := index_facts t
  show V m c main_v5 (((cfg0.win 3).blk t).view.emb (ix3 p (0 : Fin 1) d)) = _
  have h : ((cfg0.win 3).blk t).view.emb (ix3 p (0 : Fin 1) d) = ix3 s (0 : Fin 1) d := by
    funext a; apply Fin.ext
    match a with
    | ⟨0, _⟩ => show win0_3.index t (0 : Fin 3) * 64 + 1 * p.val = s.val; omega
    | ⟨1, _⟩ => show win0_3.index t (1 : Fin 3) * 1 + 1 * 0 = 0; omega
    | ⟨2, _⟩ => show win0_3.index t (2 : Fin 3) * 1024 + 1 * d.val = d.val; omega
  rw [h]
  exact tableB_apply m c s d

/-! ## What a point writes back -/

/-- WHAT POINT `t` WRITES BACK is block `t` of `target`. -/
theorem flushed_eq (c : Dev nD) (t : Fin cfg0.N) :
    (dats m 0 c).flushed 4 t = ((cfg0.win 4).blk t).view.read (Elt Ideal) (target m c) := by
  rw [Cert.KernelIdeal.Value.flushed4]
  funext j
  obtain ⟨p, q, d, rfl⟩ : ∃ (p : Fin 64) (q : Fin 32) (d : Fin 1024), j = ix3 p q d :=
    ⟨⟨(j 0).val, (j 0).isLt⟩, ⟨(j 1).val, (j 1).isLt⟩, ⟨(j 2).val, (j 2).isLt⟩,
      funext fun a => by match a with | ⟨0, _⟩ => rfl | ⟨1, _⟩ => rfl | ⟨2, _⟩ => rfl⟩
  obtain ⟨-, -, -, -, -, -, -, -, -, -, b0, b1, e2⟩ := index_facts t
  -- the sequence position and batch row the output block places entry (p, q, ·) at
  obtain ⟨s, hs⟩ : ∃ s : Fin 256, s.val = win0_4.index t (0 : Fin 3) * 64 + p.val :=
    ⟨⟨win0_4.index t (0 : Fin 3) * 64 + p.val, by have := p.isLt; omega⟩, rfl⟩
  obtain ⟨b, hb⟩ : ∃ b : Fin 256, b.val = win0_4.index t (1 : Fin 3) * 32 + q.val :=
    ⟨⟨win0_4.index t (1 : Fin 3) * 32 + q.val, by have := q.isLt; omega⟩, rfl⟩
  show out0_4 (iblk m c 0 t) (iblk m c 1 t) (iblk m c 2 t) (iblk m c 3 t) (ix3 p q d)
    = target m c (((cfg0.win 4).blk t).view.emb (ix3 p q d))
  have h : ((cfg0.win 4).blk t).view.emb (ix3 p q d) = ix3 s b d := by
    funext a; apply Fin.ext
    match a with
    | ⟨0, _⟩ => show win0_4.index t (0 : Fin 3) * 64 + 1 * p.val = s.val; omega
    | ⟨1, _⟩ => show win0_4.index t (1 : Fin 3) * 32 + 1 * q.val = b.val; omega
    | ⟨2, _⟩ => show win0_4.index t (2 : Fin 3) * 1024 + 1 * d.val = d.val; omega
  rw [h]
  refine (Cert.PosEnc.Body.block_apply (iblk m c 0 t) (iblk m c 1 t) (iblk m c 2 t) (iblk m c 3 t) p q d).trans ?_
  rw [xblk_apply m c t p q (0 : Fin 3) s b hs hb, xblk_apply m c t p q (1 : Fin 3) s b hs hb,
    xblk_apply m c t p q (2 : Fin 3) s b hs hb, wblk_apply m c t (0 : Fin 2) d, wblk_apply m c t (1 : Fin 2) d,
    wsblk_apply m c t d, tblk_apply m c t p d s hs]
  rfl

/-! ## The blocks tile the array -/

/-- An index of the array is in point `t`'s output block iff each coordinate is in the block's range on its axis. -/
theorem mem_blk (t : Fin cfg0.N) (i : S256x256x1024.Idx) :
    i ∈ ((cfg0.win 4).blk t).view.set ↔ ∀ a : Fin 3, win0_4.index t a * S64x32x1024.size a ≤ (i a).val
      ∧ (i a).val < win0_4.index t a * S64x32x1024.size a + S64x32x1024.size a := by
  show i ∈ ((View.whole main_v6).slice (win0_4.rect t)).set ↔ _
  rw [View.set_slice_whole, Rect.mem_set_unit]
  exact Iff.rfl

/-- Every index of the array is in some point's output block: the point whose block index is `(s / 64, b / 32, 0)`. -/
theorem covered (i : S256x256x1024.Idx) :
    ∃ t : Fin cfg0.N, (cfg0.win 4).flush t = true ∧ i ∈ ((cfg0.win 4).blk t).view.set := by
  have hi0 : (i 0).val < 256 := (i 0).isLt
  have hi1 : (i 1).val < 256 := (i 1).isLt
  have hi2 : (i 2).val < 1024 := (i 2).isLt
  obtain ⟨t, ht⟩ := index_onto ⟨(i 0).val / 64, by omega⟩ ⟨(i 1).val / 32, by omega⟩
  have q0 : win0_4.index t (0 : Fin 3) = (i 0).val / 64 := congrFun ht 0
  have q1 : win0_4.index t (1 : Fin 3) = (i 1).val / 32 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 64 ≤ (i 0).val ∧ (i 0).val < win0_4.index t (0 : Fin 3) * 64 + 64; omega
  | ⟨1, _⟩ => show win0_4.index t (1 : Fin 3) * 32 ≤ (i 1).val ∧ (i 1).val < win0_4.index t (1 : Fin 3) * 32 + 32; omega
  | ⟨2, _⟩ => show win0_4.index t (2 : Fin 3) * 1024 ≤ (i 2).val ∧ (i 2).val < win0_4.index t (2 : Fin 3) * 1024 + 1024; omega

/-! ## The array after the run, and the run re-posted -/

/-- THE RESULT ARRAY after the run is `target`. -/
theorem result_array (c : Dev nD) : (dats m 0 c).arrAt 4 cfg0.N = target m c :=
  (dats m 0 c).arrAt_eq_of_cover 4 (target m c) (fun t _ => flushed_eq m c t) covered

/-- The kernel's run re-posted: the result array at `target`, the six arguments unchanged. -/
theorem run : θ_run defs (onTc (τ := τ) (main (F := Ideal))) ⟨m, fun _ => 0, ρ⟩ fun r => ∀ c : Dev nD,
      r.2.mem ((c : Thread nD τ).loc main_v6) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (result_array m c), (h c).2⟩)
    (Cert.KernelIdeal.Value.run_blocks m ρ)

end Cert.PosEnc.Result

end
-- ==== Proof.lean ====
/-
  The positional-encoding layer: a fused elementwise kernel against its plain reference, equal over the extended reals.

  Both programs compute, for a sequence position `s`, a batch row `b` and a model coordinate `d`,

      x[s,b,0]·Wxy[d,0] + x[s,b,1]·Wxy[d,1] + x[s,b,2]·Wseg[d,0] + pe[s,0,d] + bxy[d] + bseg[d].

  The kernel first folds the two biases into the positional table on the host (`pe + (bxy + bseg)`), transposes the two
  weights, and then, block by block over a 4 × 8 grid, adds the three products and the folded table:
  `((p₀ + p₁) + q) + (τ + (β + γ))`. The reference contracts the two planar coordinates against the 2-column weight
  (`p₀ + p₁` as a sum over two indices), adds its bias and the table, and adds the segment product with its bias:
  `(((p₀ + p₁) + β) + τ) + (q + γ)`. The two are one extended real by commutativity and associativity of addition,
  which need no finiteness: the precondition is never opened. Neither program holds a float literal.

  The kernel's result array is `Cert.PosEnc.encoded` of the arguments (Proof/ResultArray.lean: the body's block entry by
  entry, the arrays the host prepares read at an index, the 32 blocks tiling the array); the reference's result is the
  same function (Proof/ReferenceEncoded.lean). The idealization rewrote nothing, so `preserves` has no conjunct.
-/
import proofs.«138454_j25288767438916_2_alg».proof.Defs
import proofs.«138454_j25288767438916_2_alg».proof.Proof.Gen.Kernel
import proofs.«138454_j25288767438916_2_alg».proof.Proof.Gen.Kernel.Frame
import proofs.«138454_j25288767438916_2_alg».proof.Proof.Gen.KernelIdeal
import proofs.«138454_j25288767438916_2_alg».proof.Proof.Gen.KernelIdeal.Frame
import proofs.«138454_j25288767438916_2_alg».proof.Proof.Gen.KernelIdeal.Value
import proofs.«138454_j25288767438916_2_alg».proof.Proof.Gen.ReferenceIdeal
import proofs.«138454_j25288767438916_2_alg».proof.Proof.Gen.ReferenceIdeal.Run
import proofs.«138454_j25288767438916_2_alg».proof.Proof.Gen.ReferenceIdeal.Read
import proofs.«138454_j25288767438916_2_alg».proof.Proof.Gen.Pre_finite_inputs
import proofs.«138454_j25288767438916_2_alg».proof.Proof.Encoded
import proofs.«138454_j25288767438916_2_alg».proof.Proof.ReferenceEncoded
import proofs.«138454_j25288767438916_2_alg».proof.Proof.ResultArray

noncomputable section

namespace Cert.Proof

open Idealize.ShloMosaic Idealize.ShloMosaic.TcCoe Idealize.SL.Sem

/-- The word-level kernel runs, faults nowhere, and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the six arguments, both idealized programs end with the result array at `encoded` of the
    arguments: the kernel by its blocks, the reference by its stages regrouped. -/
theorem algebraic : Cert.algebraic_KernelIdeal_ReferenceIdeal := by
  intro m ρ m' ρ' _ hagree
  refine ⟨fun c => Cert.PosEnc.Result.target m c, Cert.PosEnc.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.PosEnc.Ref.reference_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
